-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S64x4096 : Shape := ⟨2, ![64, 4096]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S64x4096 : S_.BroadcastsInDim S64x4096 (![] : Fin 0 → Fin S64x4096.rank)
  reducesTo_S64x4096_S_d0_1 : S64x4096.ReducesTo [0, 1] S_

variable [Facts]

def fn_part1 {F : FTy → Type} [FloatOps F] (main_arg1 : IVec S64x4096 32) (main_v15 : IVec S_ 1) (main_c_5 : IVec S_ 32) : IVec S_ 1 :=
  let main_v16 : IVec S64x4096 32 := broadcastInDim S64x4096 ![] bcast_S_S64x4096 main_c_5
  let main_v17 : IVec S64x4096 1 := cmpi .sge main_arg1 main_v16
  let main_c_6 : IVec S_ 32 := constantI S_ 32 16#32
  let main_v18 : IVec S64x4096 32 := broadcastInDim S64x4096 ![] bcast_S_S64x4096 main_c_6
  let main_v19 : IVec S64x4096 1 := cmpi .slt main_arg1 main_v18
  let main_v20 : IVec S64x4096 1 := andi main_v17 main_v19
  let main_c_7 : IVec S_ 1 := constantI S_ 1 1#1
  let main_v21 : IVec S_ 1 := (fun x v => Host.reduce IntOp.andi x v reducesTo_S64x4096_S_d0_1 h_S_) main_v20 main_c_7
  let main_v22 : IVec S_ 1 := andi main_v15 main_v21
  main_v22

def fn {F : FTy → Type} [FloatOps F] (main_arg0 : IVec S4096x64 32) (main_arg1 : IVec S64x4096 32) (main_arg2 : FVec F S16 .f32) (main_arg3 : FVec F S16 .f32) : IVec S_ 1 :=
  let main_v0 : FVec F S16 .f32 := Host.absf main_arg2
  let main_cst : FVec F S_ .f32 := constant S_ .f32 0x7F800000#32
  let main_v1 : FVec F S16 .f32 := broadcastInDim S16 ![] bcast_S_S16 main_cst
  let main_v2 : IVec S16 1 := cmpf .olt main_v0 main_v1
  let main_c : IVec S_ 1 := constantI S_ 1 1#1
  let main_v3 : IVec S_ 1 := (fun x v => Host.reduce IntOp.andi x v reducesTo_S16_S_d0 h_S_) main_v2 main_c
  let main_v4 : FVec F S16 .f32 := Host.absf main_arg3
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  let main_c_2 : IVec S_ 32 := constantI S_ 32 0#32
  let main_v9 : IVec S4096x64 32 := broadcastInDim S4096x64 ![] bcast_S_S4096x64 main_c_2
  let main_v10 : IVec S4096x64 1 := cmpi .sge main_arg0 main_v9
  let main_c_3 : IVec S_ 32 := constantI S_ 32 16#32
  let main_v11 : IVec S4096x64 32 := broadcastInDim S4096x64 ![] bcast_S_S4096x64 main_c_3
  let main_v12 : IVec S4096x64 1 := cmpi .slt main_arg0 main_v11
  let main_v13 : IVec S4096x64 1 := andi main_v10 main_v12
  let main_c_4 : IVec S_ 1 := constantI S_ 1 1#1
  let main_v14 : IVec S_ 1 := (fun x v => Host.reduce IntOp.andi x v reducesTo_S4096x64_S_d0_1 h_S_) main_v13 main_c_4
  let main_v15 : IVec S_ 1 := andi main_v8 main_v14
  let main_c_5 : IVec S_ 32 := constantI S_ 32 0#32
  fn_part1 (F := F) main_arg1 main_v15 main_c_5
-- ==== Kernel.lean ====
abbrev S4096x64 : Shape := ⟨2, ![4096, 64]⟩
abbrev S64x4096 : Shape := ⟨2, ![64, 4096]⟩
abbrev S16 : Shape := ⟨1, ![16]⟩
abbrev S1x16 : Shape := ⟨2, ![1, 16]⟩
abbrev S4096x4096 : Shape := ⟨2, ![4096, 4096]⟩
abbrev S512x64 : Shape := ⟨2, ![512, 64]⟩
abbrev S64x2048 : Shape := ⟨2, ![64, 2048]⟩
abbrev S512x2048 : Shape := ⟨2, ![512, 2048]⟩
abbrev S1x1 : Shape := ⟨2, ![1, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x64, .i32⟩
  | .hbm, ⟨1, _⟩ => ⟨S64x4096, .i32⟩
  | .hbm, ⟨2, _⟩ => ⟨S16, .f32⟩
  | .hbm, ⟨3, _⟩ => ⟨S16, .f32⟩
  | .hbm, ⟨4, _⟩ => ⟨S1x16, .f32⟩
  | .hbm, ⟨5, _⟩ => ⟨S1x16, .f32⟩
  | .hbm, ⟨6, _⟩ => ⟨S4096x4096, .f32⟩
  | .local _ .vmem, ⟨0, _⟩ => ⟨S512x64, .i32⟩
  | .local _ .vmem, ⟨1, _⟩ => ⟨S512x64, .i32⟩
  | .local _ .vmem, ⟨2, _⟩ => ⟨S64x2048, .i32⟩
  | .local _ .vmem, ⟨3, _⟩ => ⟨S64x2048, .i32⟩
  | .local _ .vmem, ⟨4, _⟩ => ⟨S1x16, .f32⟩
  | .local _ .vmem, ⟨5, _⟩ => ⟨S1x16, .f32⟩
  | .local _ .vmem, ⟨6, _⟩ => ⟨S512x2048, .f32⟩
  | .local _ .vmem, ⟨7, _⟩ => ⟨S512x2048, .f32⟩
  | _, _ => ⟨S4096x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S16_S1x16 : S16.ShapeCasts S1x16
  inb_S512x64_S512x64_0_0 : ∀ a, (![0, 0] : Fin 2 → Nat) a + S512x64.size a ≤ S512x64.size a
  h_S512x64 : 0 < S512x64.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  slices_S1x16_o0_0_S1x1 : S1x16.Slices ![0, 0] S1x1
  inpos_S1x1_p0_0 : ∀ a, (![0, 0] : Fin 2 → Nat) a < S1x1.size a
  slices_S1x16_o0_1_S1x1 : S1x16.Slices ![0, 1] S1x1
  slices_S1x16_o0_2_S1x1 : S1x16.Slices ![0, 2] S1x1
  slices_S1x16_o0_3_S1x1 : S1x16.Slices ![0, 3] S1x1
  slices_S1x16_o0_4_S1x1 : S1x16.Slices ![0, 4] S1x1
  slices_S1x16_o0_5_S1x1 : S1x16.Slices ![0, 5] S1x1
  slices_S1x16_o0_6_S1x1 : S1x16.Slices ![0, 6] S1x1
  slices_S1x16_o0_7_S1x1 : S1x16.Slices ![0, 7] S1x1
  slices_S1x16_o0_8_S1x1 : S1x16.Slices ![0, 8] S1x1
  slices_S1x16_o0_9_S1x1 : S1x16.Slices ![0, 9] S1x1
  slices_S1x16_o0_10_S1x1 : S1x16.Slices ![0, 10] S1x1
  slices_S1x16_o0_11_S1x1 : S1x16.Slices ![0, 11] S1x1
  slices_S1x16_o0_12_S1x1 : S1x16.Slices ![0, 12] S1x1
  slices_S1x16_o0_13_S1x1 : S1x16.Slices ![0, 13] S1x1
  slices_S1x16_o0_14_S1x1 : S1x16.Slices ![0, 14] S1x1
  slices_S1x16_o0_15_S1x1 : S1x16.Slices ![0, 15] S1x1
  inb_S64x2048_S64x2048_0_0 : ∀ a, (![0, 0] : Fin 2 → Nat) a + S64x2048.size a ≤ S64x2048.size a
  h_S64x2048 : 0 < S64x2048.numel
  inb_S512x2048_S512x2048_0_0 : ∀ a, (![0, 0] : Fin 2 → Nat) a + S512x2048.size a ≤ S512x2048.size a
  h_S512x2048 : 0 < S512x2048.numel
  dot_S512x64_S64x2048_S512x2048_1_0_0_1_n_n_wf : DotDims.WF S512x64 S64x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S4096x64.size a
  hwx0_0 : ∀ i : grid0.Coords, EltTy.bits .i32 = 32 ∨ (Rect.block (s := S4096x64) S512x64.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x4096.size a
  hwx0_1 : ∀ i : grid0.Coords, EltTy.bits .i32 = 32 ∨ (Rect.block (s := S64x4096) S64x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S4096x4096.size a
  hwx0_4 : ∀ i : grid0.Coords, EltTy.bits .f32 = 32 ∨ (Rect.block (s := S4096x4096) S512x2048.size (cc0_transform_4 i) (hinb0_4 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x64 : Shape := ⟨2, ![4096, 64]⟩
abbrev S64x4096 : Shape := ⟨2, ![64, 4096]⟩
abbrev S16 : Shape := ⟨1, ![16]⟩
abbrev S_ : Shape := ⟨0, ![]⟩
abbrev S4096x64x1 : Shape := ⟨3, ![4096, 64, 1]⟩
abbrev S1 : Shape := ⟨1, ![1]⟩
abbrev S1x1x1 : Shape := ⟨3, ![1, 1, 1]⟩
abbrev S64x4096x1 : Shape := ⟨3, ![64, 4096, 1]⟩
abbrev S4096x4096 : Shape := ⟨2, ![4096, 4096]⟩

abbrev nBuf : Space → Nat
  | .hbm => 49
  | .vmem => 0
  | .smem => 0
  | _ => 0

abbrev bufTy : (tb : Table) → Fin (tcTables nBuf tb) → BufTy
  | .hbm, ⟨0, _⟩ => ⟨S4096x64, .i32⟩
  | .hbm, ⟨1, _⟩ => ⟨S64x4096, .i32⟩
  | .hbm, ⟨2, _⟩ => ⟨S16, .f32⟩
  | .hbm, ⟨3, _⟩ => ⟨S16, .f32⟩
  | .hbm, ⟨4, _⟩ => ⟨S_, .i32⟩
  | .hbm, ⟨5, _⟩ => ⟨S4096x64, .i32⟩
  | .hbm, ⟨6, _⟩ => ⟨S4096x64, .i1⟩
  | .hbm, ⟨7, _⟩ => ⟨S_, .i32⟩
  | .hbm, ⟨8, _⟩ => ⟨S4096x64, .i32⟩
  | .hbm, ⟨9, _⟩ => ⟨S4096x64, .i32⟩
  | .hbm, ⟨10, _⟩ => ⟨S4096x64, .i32⟩
  | .hbm, ⟨11, _⟩ => ⟨S4096x64x1, .i32⟩
  | .hbm, ⟨12, _⟩ => ⟨S1, .i32⟩
  | .hbm, ⟨13, _⟩ => ⟨S_, .i32⟩
  | .hbm, ⟨14, _⟩ => ⟨S4096x64x1, .i32⟩
  | .hbm, ⟨15, _⟩ => ⟨S4096x64x1, .i1⟩
  | .hbm, ⟨16, _⟩ => ⟨S1x1x1, .i32⟩
  | .hbm, ⟨17, _⟩ => ⟨S4096x64x1, .i32⟩
  | .hbm, ⟨18, _⟩ => ⟨S4096x64x1, .i1⟩
  | .hbm, ⟨19, _⟩ => ⟨S4096x64x1, .i1⟩
  | .hbm, ⟨20, _⟩ => ⟨S_, .i1⟩
  | .hbm, ⟨21, _⟩ => ⟨S4096x64, .i1⟩
  | .hbm, ⟨22, _⟩ => ⟨S4096x64, .f32⟩
  | .hbm, ⟨23, _⟩ => ⟨S_, .f32⟩
  | .hbm, ⟨24, _⟩ => ⟨S4096x64, .f32⟩
  | .hbm, ⟨25, _⟩ => ⟨S4096x64, .f32⟩
  | .hbm, ⟨26, _⟩ => ⟨S_, .i32⟩
  | .hbm, ⟨27, _⟩ => ⟨S64x4096, .i32⟩
  | .hbm, ⟨28, _⟩ => ⟨S64x4096, .i1⟩
  | .hbm, ⟨29, _⟩ => ⟨S_, .i32⟩
  | .hbm, ⟨30, _⟩ => ⟨S64x4096, .i32⟩
  | .hbm, ⟨31, _⟩ => ⟨S64x4096, .i32⟩
  | .hbm, ⟨32, _⟩ => ⟨S64x4096, .i32⟩
  | .hbm, ⟨33, _⟩ => ⟨S64x4096x1, .i32⟩
  | .hbm, ⟨34, _⟩ => ⟨S1, .i32⟩
  | .hbm, ⟨35, _⟩ => ⟨S_, .i32⟩
  | .hbm, ⟨36, _⟩ => ⟨S64x4096x1, .i32⟩
  | .hbm, ⟨37, _⟩ => ⟨S64x4096x1, .i1⟩
  | .hbm, ⟨38, _⟩ => ⟨S1x1x1, .i32⟩
  | .hbm, ⟨39, _⟩ => ⟨S64x4096x1, .i32⟩
  | .hbm, ⟨40, _⟩ => ⟨S64x4096x1, .i1⟩
  | .hbm, ⟨41, _⟩ => ⟨S64x4096x1, .i1⟩
  | .hbm, ⟨42, _⟩ => ⟨S_, .i1⟩
  | .hbm, ⟨43, _⟩ => ⟨S64x4096, .i1⟩
  | .hbm, ⟨44, _⟩ => ⟨S64x4096, .f32⟩
  | .hbm, ⟨45, _⟩ => ⟨S_, .f32⟩
  | .hbm, ⟨46, _⟩ => ⟨S64x4096, .f32⟩
  | .hbm, ⟨47, _⟩ => ⟨S64x4096, .f32⟩
  | .hbm, ⟨48, _⟩ => ⟨S4096x4096, .f32⟩
  | _, _ => ⟨S4096x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_cst : Ref sig .tc := ⟨.hbm, 45, rfl⟩
abbrev main_call1_v14 : Ref sig .tc := ⟨.hbm, 46, rfl⟩
abbrev main_v1 : Ref sig .tc := ⟨.hbm, 47, rfl⟩
abbrev main_v2 : Ref sig .tc := ⟨.hbm, 48, rfl⟩

abbrev nD : Nat := 1
abbrev τ : Topo := Topo.v7x

variable {F : FTy → Type} [FloatOps F]

class Facts₀ : Prop where
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S_S4096x64x1 : S_.BroadcastsInDim S4096x64x1 (![] : Fin 0 → Fin S4096x64x1.rank)
  bcast_S1_S1x1x1_2 : S1.BroadcastsInDim S1x1x1 (![2] : Fin 1 → Fin S1x1x1.rank)
  bcast_S1x1x1_S4096x64x1_0_1_2 : S1x1x1.BroadcastsInDim S4096x64x1 (![0, 1, 2] : Fin 3 → Fin S4096x64x1.rank)
  reducesTo_S4096x64x1_S4096x64_d2 : S4096x64x1.ReducesTo [2] S4096x64
  h_S_ : 0 < S_.numel
  bcast_S_S64x4096 : S_.BroadcastsInDim S64x4096 (![] : Fin 0 → Fin S64x4096.rank)
  bcast_S64x4096_S64x4096x1_0_1 : S64x4096.BroadcastsInDim S64x4096x1 (![0, 1] : Fin 2 → Fin S64x4096x1.rank)
  bcast_S_S64x4096x1 : S_.BroadcastsInDim S64x4096x1 (![] : Fin 0 → Fin S64x4096x1.rank)
  bcast_S1x1x1_S64x4096x1_0_1_2 : S1x1x1.BroadcastsInDim S64x4096x1 (![0, 1, 2] : Fin 3 → Fin S64x4096x1.rank)
  reducesTo_S64x4096x1_S64x4096_d2 : S64x4096x1.ReducesTo [2] S64x4096
  gather_S16_S4096x64x1_S4096x64_n_0_n_n_0_2_1_wf : GatherDims.WF S16 S4096x64x1 S4096x64 [] [0] [] [0] [] 2 ![1]
  gather_S16_S64x4096x1_S64x4096_n_0_n_n_0_2_1_wf : GatherDims.WF S16 S64x4096x1 S64x4096 [] [0] [] [0] [] 2 ![1]
  dot_S4096x64_S64x4096_S4096x4096_1_0_0_1_n_n_wf : DotDims.WF S4096x64 S64x4096 S4096x4096 [1] [0] [0] [1] [] []

variable [Facts₀]

def gather_S16_S4096x64x1_S4096x64_n_0_n_n_0_2_1 : GatherDims S16 S4096x64x1 S4096x64 where
  offsetDims := []
  collapsedSliceDims := [0]
  operandBatchingDims := []
  startIndicesBatchingDims := []
  startIndexMap := [0]
  indexVectorDim := 2
  sliceSizes := ![1]
  wf := gather_S16_S4096x64x1_S4096x64_n_0_n_n_0_2_1_wf
def gather_S16_S64x4096x1_S64x4096_n_0_n_n_0_2_1 : GatherDims S16 S64x4096x1 S64x4096 where
  offsetDims := []
  collapsedSliceDims := [0]
  operandBatchingDims := []
  startIndicesBatchingDims := []
  startIndexMap := [0]
  indexVectorDim := 2
  sliceSizes := ![1]
  wf := gather_S16_S64x4096x1_S64x4096_n_0_n_n_0_2_1_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf

class Facts : Prop extends Facts₀ where

variable [Facts]
-- ==== Proof.Dequant.lean ====
/-
  Codebook dequantization, as mathematics, with no program in sight.

  A code word is a 32-bit integer naming one of the 16 entries of a codebook. Two ways of looking an entry up
  appear in this certificate: a chain of fifteen selects ("if the word is 15 take entry 15, else if it is 14 take
  entry 14, ..., else take entry 0"), and a direct lookup at the word's value. On a word that, read signed, lies
  in 0..15 both give the entry at that value; outside that range they differ (the chain falls back to entry 0).
  This module states the range, the entry a word names, the chain, and that the chain is the lookup in range.
-/
import Idealize.ShloMosaic.PureOps
import Idealize.ShloMosaic.PureOps.Ideal
import Idealize.ShloMosaic.Lib.ValueIdx
import Idealize.ShloMosaic.Lib.Affine

namespace Cert.Dequant

open Idealize.ShloMosaic Idealize.ShloMosaic.ValueIdx

/-- A code word is in range when, read as a signed integer, it is one of 0, 1, ..., 15. -/
def InRange (x : BitVec 32) : Prop := 0 ≤ x.toInt ∧ x.toInt < 16

/-- The codebook position a word names: its unsigned value modulo 16, which is the word's value when in range. -/
def code (x : BitVec 32) : Fin 16 := ⟨x.toNat % 16, Nat.mod_lt _ (by decide)⟩

/-- An in-range word, read unsigned, is below 16. -/
theorem InRange.toNat_lt {x : BitVec 32} (h : InRange x) : x.toNat < 16 := by
  obtain ⟨h0, h1⟩ := h
  rw [BitVec.toInt_eq_toNat_cond] at h0 h1
  split at h0 <;> omega

/-- An in-range word is the 32-bit numeral of the position it names. -/
theorem InRange.eq_ofNat {x : BitVec 32} (h : InRange x) : x = BitVec.ofNat 32 (code x).val := by
  have hlt := h.toNat_lt
  apply BitVec.eq_of_toNat_eq
  simp only [code, BitVec.toNat_ofNat]
  omega

/-- The chain of fifteen selects over a table `t` of 16 entries: entry `k` when the word equals `k`, tried from 15
    down to 1, and entry 0 when none matches. -/
def chain {α : Type} (t : Fin 16 → α) (x : BitVec 32) : α :=
  Scalar.select (IntOp.cmpi .eq x 15#32) (t 15)
  (Scalar.select (IntOp.cmpi .eq x 14#32) (t 14)
  (Scalar.select (IntOp.cmpi .eq x 13#32) (t 13)
  (Scalar.select (IntOp.cmpi .eq x 12#32) (t 12)
  (Scalar.select (IntOp.cmpi .eq x 11#32) (t 11)
  (Scalar.select (IntOp.cmpi .eq x 10#32) (t 10)
  (Scalar.select (IntOp.cmpi .eq x 9#32) (t 9)
  (Scalar.select (IntOp.cmpi .eq x 8#32) (t 8)
  (Scalar.select (IntOp.cmpi .eq x 7#32) (t 7)
  (Scalar.select (IntOp.cmpi .eq x 6#32) (t 6)
  (Scalar.select (IntOp.cmpi .eq x 5#32) (t 5)
  (Scalar.select (IntOp.cmpi .eq x 4#32) (t 4)
  (Scalar.select (IntOp.cmpi .eq x 3#32) (t 3)
  (Scalar.select (IntOp.cmpi .eq x 2#32) (t 2)
  (Scalar.select (IntOp.cmpi .eq x 1#32) (t 1) (t 0)))))))))))))))

/-- On an in-range word the chain of selects is the lookup at the position the word names: the word is one of the
    sixteen numerals, and on each the chain's fifteen tests are decided. -/
theorem chain_eq {α : Type} (t : Fin 16 → α) {x : BitVec 32} (h : InRange x) : chain t x = t (code x) := by
  have hx := h.eq_ofNat
  generalize code x = k at hx
  subst hx
  fin_cases k <;> rfl

/-- The product of the two dequantized factors, over the extended reals: entry (i, j) is the sum over the 64 inner
    positions c of (the first codebook at the position word A(i, c) names) times (the second codebook at the position
    word B(c, j) names). -/
noncomputable def G (A : IVec ⟨2, ![4096, 64]⟩ 32) (B : IVec ⟨2, ![64, 4096]⟩ 32) (ca cb : FVec Ideal ⟨1, ![16]⟩ .f32) :
    FVec Ideal ⟨2, ![4096, 4096]⟩ .f32 :=
  fun i => ∑ c : Fin 64, ca (ix1 (code (A (ix2 (i 0) c)))) * cb (ix1 (code (B (ix2 c (i 1)))))

end Cert.Dequant
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.KernelPayload.lean ====
/-
  What one grid point's body computes, read at an index, over the extended reals.

  The body holds a 512×64 block of code words and a 64×2048 block of code words, and the two codebooks as 1×16 rows.
  It turns each block of words into a block of numbers by a chain of fifteen selects per element (entry k of the
  codebook where the word equals k, tried for k = 1, ..., 15 over a default of entry 0), and multiplies the two
  blocks of numbers as matrices into a zero accumulator. So its result at row p and column q is the sum over the 64
  inner positions c of (the chain on the word at (p, c), over the first codebook) times (the chain on the word at
  (c, q), over the second codebook).
-/
import proofs.«164151_g1408749273623_cont_week2b_1096_2_alg».proof.Proof.Gen.KernelIdeal.Skeleton
import proofs.«164151_g1408749273623_cont_week2b_1096_2_alg».proof.Proof.Dequant
import proofs.«164151_g1408749273623_cont_week2b_1096_2_alg».proof.Proof.LibMatmulPlain
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.ValueIdx Cert.Dequant

/-- One codebook entry as the body reads it — the 1×1 slice of the 1×16 row at column k, then its one element — is the
    row's entry at column k. -/
theorem entry_at (x : Vec Ideal S1x16 .f32) (k : Nat) (hk : k < 16) (h : S1x16.Slices ![0, k] S1x1)
    (h' : ∀ a, (![0, 0] : Fin S1x1.rank → Nat) a < S1x1.size a) :
    extractAt ![0, 0] (extractStridedSlice S1x1 ![0, k] x h) h' = x (ix2 (0 : Fin 1) (⟨k, hk⟩ : Fin 16)) := by
  unfold extractAt extractStridedSlice
  refine congrArg x (funext fun a => Fin.ext ?_)
  match a with
  | ⟨0, _⟩ => rfl
  | ⟨1, _⟩ => rfl

/-- The printed dimension numbers of the body's product are those of a plain 512×64 by 64×2048 product. -/
theorem dims_eq : dot_S512x64_S64x2048_S512x2048_1_0_0_1_n_n = DotDims.plain 512 64 2048 := rfl

/-- The first block of numbers, element by element: the chain of selects on the element's word over the first
    codebook's row. -/
theorem deqA_apply (x0 : Vec Ideal S512x64 .i32) (x2 : Vec Ideal S1x16 .f32) (i : S512x64.Idx) :
    k0_pay5 x0 (k0_pay1 x2) (k0_pay2 x0 x2) (k0_pay3 x0) (k0_pay4 x2) i
      = chain (fun k : Fin 16 => x2 (ix2 (0 : Fin 1) k)) (x0 i) := by
  have e1 : k0_pay1 x2 = x2 := shapeCast_self _ _
  unfold k0_pay5 k0_pay2 k0_pay3 k0_pay4
  rw [e1]
  dsimp only
  rw [entry_at x2 0 (by decide), entry_at x2 1 (by decide), entry_at x2 2 (by decide), entry_at x2 3 (by decide),
    entry_at x2 4 (by decide), entry_at x2 5 (by decide), entry_at x2 6 (by decide), entry_at x2 7 (by decide),
    entry_at x2 8 (by decide), entry_at x2 9 (by decide), entry_at x2 10 (by decide), entry_at x2 11 (by decide),
    entry_at x2 12 (by decide), entry_at x2 13 (by decide), entry_at x2 14 (by decide), entry_at x2 15 (by decide)]
  rfl

/-- The body's result as the product, into the zero accumulator, of the first block of numbers with the second, the
    second being element by element the chain of selects on the element's word over the second codebook's row. -/
theorem pay10_eq (a : FVec Ideal S512x64 .f32) (x1 : Vec Ideal S64x2048 .i32) (x3 : Vec Ideal S1x16 .f32) :
    k0_pay10 a x1 (k0_pay6 x3) (k0_pay7 x1 x3) (k0_pay8 x1) (k0_pay9 x3)
      = matmul dot_S512x64_S64x2048_S512x2048_1_0_0_1_n_n none a
          ((fun i => chain (fun k : Fin 16 => x3 (ix2 (0 : Fin 1) k)) (x1 i)) : FVec Ideal S64x2048 .f32)
          (constant (F := Ideal) S512x2048 .f32 0x00000000#32) := by
  have e6 : k0_pay6 x3 = x3 := shapeCast_self _ _
  unfold k0_pay10 k0_pay7 k0_pay8 k0_pay9
  rw [e6]
  dsimp only
  rw [entry_at x3 0 (by decide), entry_at x3 1 (by decide), entry_at x3 2 (by decide), entry_at x3 3 (by decide),
    entry_at x3 4 (by decide), entry_at x3 5 (by decide), entry_at x3 6 (by decide), entry_at x3 7 (by decide),
    entry_at x3 8 (by decide), entry_at x3 9 (by decide), entry_at x3 10 (by decide), entry_at x3 11 (by decide),
    entry_at x3 12 (by decide), entry_at x3 13 (by decide), entry_at x3 14 (by decide), entry_at x3 15 (by decide)]
  rfl

/-- THE BODY'S RESULT AT (p, q): the sum over the inner position c of the two chains' values at (p, c) and (c, q). -/
theorem payload_apply (x0 : Vec Ideal S512x64 .i32) (x1 : Vec Ideal S64x2048 .i32) (x2 x3 : Vec Ideal S1x16 .f32)
    (p : Fin 512) (q : Fin 2048) :
    k0_pay10 (k0_pay5 x0 (k0_pay1 x2) (k0_pay2 x0 x2) (k0_pay3 x0) (k0_pay4 x2)) x1 (k0_pay6 x3) (k0_pay7 x1 x3)
        (k0_pay8 x1) (k0_pay9 x3) (ix2 p q)
      = ∑ c : Fin 64, chain (fun k : Fin 16 => x2 (ix2 (0 : Fin 1) k)) (x0 (ix2 p c))
          * chain (fun k : Fin 16 => x3 (ix2 (0 : Fin 1) k)) (x1 (ix2 c q)) := by
  rw [pay10_eq, dims_eq]
  refine (Cert.LibMatmulPlain.matmul_plain_zero_apply none _ _ p q).trans ?_
  refine Finset.sum_congr rfl fun c _ => ?_
  rw [deqA_apply]

end Cert.KernelIdeal.Hand

end
-- ==== Proof.KernelBlocks.lean ====
/-
  From what each grid point writes to the whole result array, over the extended reals.

  The grid has 8 × 2 points. Point (a, b) stages rows 512a ... 512a + 511 of the first array of code words (all 64
  columns), columns 2048b ... 2048b + 2047 of the second (all 64 rows), both codebooks whole (each a 16-entry array,
  laid out as one row of 16 before the region), and writes the 512 × 2048 block at block position (a, b) of the
  result. By the reading of the body, the element it writes at (p, q) of its block is the sum over the inner position
  c of the two select chains' values; row p of the staged rows is row 512a + p of the array and column q of the staged
  columns is column 2048b + q, so that element is the entry (512a + p, 2048b + q) of ONE function of the four argument
  arrays. The sixteen blocks tile the 4096 × 4096 result, so the result array ends holding that function.
-/
import proofs.«164151_g1408749273623_cont_week2b_1096_2_alg».proof.Proof.Gen.KernelIdeal.Value
import proofs.«164151_g1408749273623_cont_week2b_1096_2_alg».proof.Proof.KernelPayload
import Idealize.ShloMosaic.Lib.Pipeline.Value
import Idealize.ShloMosaic.Lib.StableHlo.Run
import Idealize.ShloMosaic.Lib.ValueLayout

noncomputable section

namespace Cert.KernelIdeal.Hand

open Cert.KernelIdeal Cert.KernelIdeal.Gen Cert.KernelIdeal.Value Idealize.ShloMosaic Idealize.ShloMosaic.TcCoe
  Idealize.SL.Sem Idealize.ShloMosaic.StableHlo Idealize.ShloMosaic.ValueIdx Cert.Dequant
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result as one function of the four argument arrays: entry (i, j) is the sum over the inner position c of the
    select chain on word A(i, c) over the first codebook times the select chain on word B(c, j) over the second. -/
def GK (A : IVec S4096x64 32) (B : IVec S64x4096 32) (ca cb : FVec Ideal S16 .f32) : FVec Ideal S4096x4096 .f32 :=
  fun i => ∑ c : Fin 64, chain (fun k : Fin 16 => ca (ix1 k)) (A (ix2 (i 0) c))
    * chain (fun k : Fin 16 => cb (ix1 k)) (B (ix2 c (i 1)))

/-- The block positions, decided over the sixteen points: the first array's rows move with the result's block row
    and it has one block column; the second array's columns move with the result's block column and it has one block
    row; the codebooks' one block stays; the result's block position stays inside 8 × 2. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = win0_4.index t (1 : Fin 2)
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 7 ∧ win0_4.index t (1 : Fin 2) ≤ 1 :=
  (by decide +kernel : ∀ t : Fin grid0.N, _)

/-- Every block position of the 8 × 2 tiling is some point's. -/
theorem idx_onto : ∀ (q0 : Fin 8) (q1 : Fin 2), ∃ t : Fin cfg0.N, win0_4.index t = ![q0.val, q1.val] :=
  (by decide +kernel : ∀ (q0 : Fin 8) (q1 : Fin 2), ∃ t : Fin grid0.N, win0_4.index t = ![q0.val, q1.val])

/-- The staged rows of the first array: element x of the block is the array's element whose row is the block row
    times 512 plus x's row, and whose column is x's. -/
theorem blkA_apply (c : Dev nD) (t : Fin cfg0.N) (x : S512x64.Idx) (k : S4096x64.Idx)
    (hk0 : (k 0).val = win0_0.index t (0 : Fin 2) * 512 + (x 0).val)
    (hk1 : (k 1).val = win0_0.index t (1 : Fin 2) * 64 + (x 1).val) :
    (iblk m c 0 t : Vec Ideal S512x64 .i32) x = ((m ((c : Thread nD τ).loc main_arg0)) : S4096x64.Idx → BitVec 32) k := by
  unfold iblk
  rw [View.read_apply]
  show V m c main_arg0 _ = _
  rw [V_main_arg0]
  refine congrArg _ (funext fun a => Fin.ext ?_)
  match a with
  | ⟨0, _⟩ => show win0_0.index t (0 : Fin 2) * 512 + 1 * (x 0).val = (k 0).val; omega
  | ⟨1, _⟩ => show win0_0.index t (1 : Fin 2) * 64 + 1 * (x 1).val = (k 1).val; omega

/-- The staged columns of the second array, likewise. -/
theorem blkB_apply (c : Dev nD) (t : Fin cfg0.N) (x : S64x2048.Idx) (k : S64x4096.Idx)
    (hk0 : (k 0).val = win0_1.index t (0 : Fin 2) * 64 + (x 0).val)
    (hk1 : (k 1).val = win0_1.index t (1 : Fin 2) * 2048 + (x 1).val) :
    (iblk m c 1 t : Vec Ideal S64x2048 .i32) x = ((m ((c : Thread nD τ).loc main_arg1)) : S64x4096.Idx → BitVec 32) k := by
  unfold iblk
  rw [View.read_apply]
  show V m c main_arg1 _ = _
  rw [V_main_arg1]
  refine congrArg _ (funext fun a => Fin.ext ?_)
  match a with
  | ⟨0, _⟩ => show win0_1.index t (0 : Fin 2) * 64 + 1 * (x 0).val = (k 0).val; omega
  | ⟨1, _⟩ => show win0_1.index t (1 : Fin 2) * 2048 + 1 * (x 1).val = (k 1).val; omega

/-- Before the region the first codebook, a 16-entry array, is laid out as one row of 16. -/
theorem V_rowA (c : Dev nD) :
    (V m c main_v0 : S1x16.Idx → EReal) = shapeCast S1x16 (m ((c : Thread nD τ).loc main_arg2)) shapeCasts_S16_S1x16 := by
  dsimp only [Gen.V, Gen.hostOps0]; after_results; rfl

/-- And the second codebook likewise. -/
theorem V_rowB (c : Dev nD) :
    (V m c main_v1 : S1x16.Idx → EReal) = shapeCast S1x16 (m ((c : Thread nD τ).loc main_arg3)) shapeCasts_S16_S1x16 := by
  dsimp only [Gen.V, Gen.hostOps0]; after_results; rfl

/-- The staged row of the first codebook at column k is the codebook's entry k. -/
theorem blkRowA_apply (c : Dev nD) (t : Fin cfg0.N) (k : Fin 16) :
    (iblk m c 2 t : Vec Ideal S1x16 .f32) (ix2 (0 : Fin 1) k) = ((m ((c : Thread nD τ).loc main_arg2)) : S16.Idx → EReal) (ix1 k) := by
  unfold iblk
  rw [View.read_apply]
  show V m c main_v0 _ = _
  rw [V_rowA]
  obtain ⟨-, -, -, -, e20, e21, -⟩ := idx_facts t
  have e : ((cfg0.win 2).blk t).view.emb (ix2 (0 : Fin 1) k) = ix2 (0 : Fin 1) k := by
    funext a; apply Fin.ext
    match a with
    | ⟨0, _⟩ => show win0_2.index t (0 : Fin 2) * 1 + 1 * 0 = 0; omega
    | ⟨1, _⟩ => show win0_2.index t (1 : Fin 2) * 16 + 1 * k.val = k.val; omega
  rw [e]
  exact shapeCast_a_1a_apply _ _ 0 k

/-- The staged row of the second codebook at column k is the codebook's entry k. -/
theorem blkRowB_apply (c : Dev nD) (t : Fin cfg0.N) (k : Fin 16) :
    (iblk m c 3 t : Vec Ideal S1x16 .f32) (ix2 (0 : Fin 1) k) = ((m ((c : Thread nD τ).loc main_arg3)) : S16.Idx → EReal) (ix1 k) := by
  unfold iblk
  rw [View.read_apply]
  show V m c main_v1 _ = _
  rw [V_rowB]
  obtain ⟨-, -, -, -, -, -, e30, e31, -⟩ := idx_facts t
  have e : ((cfg0.win 3).blk t).view.emb (ix2 (0 : Fin 1) k) = ix2 (0 : Fin 1) k := by
    funext a; apply Fin.ext
    match a with
    | ⟨0, _⟩ => show win0_3.index t (0 : Fin 2) * 1 + 1 * 0 = 0; omega
    | ⟨1, _⟩ => show win0_3.index t (1 : Fin 2) * 16 + 1 * k.val = k.val; omega
  rw [e]
  exact shapeCast_a_1a_apply _ _ 0 k

/-- WHAT POINT t WRITES BACK is block t of the one function of the argument arrays. -/
theorem flushed_eq (c : Dev nD) (t : Fin cfg0.N) :
    (dats m 0 c).flushed 4 t = ((cfg0.win 4).blk t).view.read (Elt Ideal)
      (GK (m ((c : Thread nD τ).loc main_arg0)) (m ((c : Thread nD τ).loc main_arg1)) (m ((c : Thread nD τ).loc main_arg2)) (m ((c : Thread nD τ).loc main_arg3))) := by
  rw [Value.flushed4]
  unfold out0_4
  rw [View.canon_unit_zero hz]
  simp only [View.ld_unit_zero (S := S512x64) hz, View.ld_unit_zero (S := S64x2048) hz, View.ld_unit_zero (S := S1x16) hz]
  funext j
  obtain ⟨p, q, rfl⟩ : ∃ (p : Fin 512) (q : Fin 2048), j = (ix2 p q : S512x2048.Idx) := ⟨j 0, j 1, eq_ix2 j⟩
  obtain ⟨e00, e01, e10, e11, -, -, -, -, b0, b1⟩ := idx_facts t
  show k0_pay10 _ _ _ _ _ _ (ix2 p q) = GK _ _ _ _ (((cfg0.win 4).blk t).view.emb (ix2 p q))
  refine (payload_apply (iblk m c 0 t) (iblk m c 1 t) (iblk m c 2 t) (iblk m c 3 t) p q).trans ?_
  unfold GK
  refine Finset.sum_congr rfl fun c' _ => ?_
  have hA := blkA_apply m c t (ix2 p c') (ix2 ((((cfg0.win 4).blk t).view.emb (ix2 p q : S512x2048.Idx)) 0) c')
    (by show win0_4.index t (0 : Fin 2) * 512 + 1 * p.val = win0_0.index t (0 : Fin 2) * 512 + p.val; omega)
    (by show c'.val = win0_0.index t (1 : Fin 2) * 64 + c'.val; omega)
  have hB := blkB_apply m c t (ix2 c' q) (ix2 c' ((((cfg0.win 4).blk t).view.emb (ix2 p q : S512x2048.Idx)) 1))
    (by show c'.val = win0_1.index t (0 : Fin 2) * 64 + c'.val; omega)
    (by show win0_4.index t (1 : Fin 2) * 2048 + 1 * q.val = win0_1.index t (1 : Fin 2) * 2048 + q.val; omega)
  rw [hA, hB]
  have hRA : (fun k : Fin 16 => (iblk m c 2 t : Vec Ideal S1x16 .f32) (ix2 (0 : Fin 1) k))
      = fun k : Fin 16 => ((m ((c : Thread nD τ).loc main_arg2)) : S16.Idx → EReal) (ix1 k) := funext fun k => blkRowA_apply m c t k
  have hRB : (fun k : Fin 16 => (iblk m c 3 t : Vec Ideal S1x16 .f32) (ix2 (0 : Fin 1) k))
      = fun k : Fin 16 => ((m ((c : Thread nD τ).loc main_arg3)) : S16.Idx → EReal) (ix1 k) := funext fun k => blkRowB_apply m c t k
  rw [hRA, hRB]

/-- An index of the result is in point t's block iff each coordinate is in the block's range on its axis. -/
theorem mem_blk (t : Fin cfg0.N) (i : S4096x4096.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v2).slice (win0_4.rect t)).set ↔ _
  rw [View.set_slice_whole, Rect.mem_set_unit]
  exact Iff.rfl

/-- The sixteen blocks tile the result: entry (r, s) lies in the block at position (r / 512, s / 2048). -/
theorem cover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := idx_onto ⟨(i 0).val / 512, by omega⟩ ⟨(i 1).val / 2048, by omega⟩
  have q0 : win0_4.index t (0 : Fin 2) = (i 0).val / 512 := congrFun ht 0
  have q1 : win0_4.index t (1 : Fin 2) = (i 1).val / 2048 := congrFun ht 1
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 2048 ≤ (i 1).val ∧ (i 1).val < win0_4.index t (1 : Fin 2) * 2048 + 2048; omega

/-- THE RESULT ARRAY after the run is that function of the argument arrays. -/
theorem final (c : Dev nD) : (dats m 0 c).arrAt 4 cfg0.N
    = GK (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c t) cover

/-- The run, read: the result array at the function of the argument arrays, the arguments unchanged. -/
theorem run : θ_run defs (onTc (τ := τ) (main (F := Ideal))) ⟨m, fun _ => 0, ρ⟩ fun r => ∀ c : Dev nD,
      r.2.mem ((c : Thread nD τ).loc main_v2)
        = GK (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Hand

end
-- ==== Proof.KernelIsG.lean ====
/-
  In range, the kernel's result is the specification's.

  The kernel's result array is a sum of products of select chains; the specification's is the same sum with each chain
  replaced by the lookup at the position the word names. On an in-range word the chain is that lookup, so where every
  code word of both arrays is in range the two functions agree entry by entry, term by term.
-/
import proofs.«164151_g1408749273623_cont_week2b_1096_2_alg».proof.Proof.KernelBlocks

noncomputable section

namespace Cert.KernelIdeal.Hand

open Cert.KernelIdeal Idealize.ShloMosaic Idealize.ShloMosaic.ValueIdx Cert.Dequant

/-- Where every word of both assignment arrays is in range, the kernel's function of the argument arrays is the product
    of the two dequantized factors. -/
theorem GK_eq_G (A : IVec S4096x64 32) (B : IVec S64x4096 32) (ca cb : FVec Ideal S16 .f32)
    (hA : ∀ i, InRange (A i)) (hB : ∀ i, InRange (B i)) : GK A B ca cb = G A B ca cb := by
  funext i
  unfold GK G
  refine Finset.sum_congr rfl fun c _ => ?_
  rw [chain_eq _ (hA _), chain_eq _ (hB _)]

end Cert.KernelIdeal.Hand

end
-- ==== Proof.PreRange.lean ====
/-
  What the precondition says of the code words.

  The precondition is a conjunction of four statements, each "every element of an array passes a test": the two
  codebooks are finite, and every word of each assignment array is, read signed, at least 0 and below 16. Read back,
  the last two say that every code word is in range.
-/
import proofs.«164151_g1408749273623_cont_week2b_1096_2_alg».proof.Pre_finite_inputs
import proofs.«164151_g1408749273623_cont_week2b_1096_2_alg».proof.Proof.Dequant
import Idealize.ShloMosaic.Lib.ReduceAll
import Idealize.ShloMosaic.Lib.Affine
import Idealize.ShloMosaic.Lib.ValueIdx

namespace Cert.Pre_finite_inputs.Hand

open Cert.Pre_finite_inputs Idealize.ShloMosaic Cert.Dequant

variable [Facts]
open Facts

/-- The scalar shape has one index. -/
instance : Subsingleton S_.Idx := ⟨fun a b => funext fun d => d.elim0⟩

/-- A word that tests "at least 0" and "below 16", signed, is in range. -/
theorem inRange_of_tests {x : BitVec 32} (h0 : IntOp.cmpi .sge x 0#32 = 1#1) (h1 : IntOp.cmpi .slt x 16#32 = 1#1) :
    InRange x := by
  have g0 := IntOp.cmpi_sge.1 h0
  have g1 := IntOp.cmpi_slt.1 h1
  have z0 : (0#32 : BitVec 32).toInt = 0 := by decide
  have z1 : (16#32 : BitVec 32).toInt = 16 := by decide
  rw [z0] at g0
  rw [z1] at g1
  exact ⟨g0, g1⟩

/-- Where the precondition holds, every word of both assignment arrays is in range. -/
theorem range_of_pre {F : FTy → Type} [FloatOps F] (A : IVec S4096x64 32) (B : IVec S64x4096 32)
    (ca cb : FVec F S16 .f32) (h : fn (F := F) A B ca cb = fun _ => 1#1) :
    (∀ i, InRange (A i)) ∧ (∀ i, InRange (B i)) := by
  have h0 := congrFun h ValueIdx.ix0
  dsimp only [fn, fn_part1] at h0
  obtain ⟨h1, hB⟩ := IntOp.andi_eq_one.1 h0
  obtain ⟨-, hA⟩ := IntOp.andi_eq_one.1 h1
  refine ⟨fun i => ?_, fun i => ?_⟩
  · obtain ⟨g0, g1⟩ := IntOp.andi_eq_one.1 (Host.reduce_andi_all _ _ _ _ _ hA i)
    exact inRange_of_tests g0 g1
  · obtain ⟨g0, g1⟩ := IntOp.andi_eq_one.1 (Host.reduce_andi_all _ _ _ _ _ hB i)
    exact inRange_of_tests g0 g1

end Cert.Pre_finite_inputs.Hand
-- ==== Proof.RefRun.lean ====
/-
  The reference program, run.

  The reference computes a product of two dequantized factors. Each factor is a table lookup: an array of 32-bit
  code words and a codebook of 16 numbers give the array whose entry at a position is the codebook's number at
  that position's word. The lookup is written with the usual guards of an indexed read: a word that reads
  negative is first moved up by 16 (so that -1 names the last entry); the moved word is then tested for lying in
  0..15; the codebook is read at the moved word clamped into 0..15; and where the test failed the entry is
  replaced by a fixed not-a-number word. The first factor is 4096 by 64, the second 64 by 4096, and the result is
  their matrix product, 4096 by 4096.

  As a program this is a straight line of 45 array operations with no kernel: 22 for each lookup (the lookup is a
  function the program calls, and the function calls a one-operation select helper in turn; a call means the
  callee's operations at the call site, over the buffers the call names) and one for the product. This module lists
  the 45 operations in program order, shows the printed program is exactly that list run in order, and reads the
  run back: from any launch memory every execution ends with the result buffer holding `out` — the 45
  operations composed as one function of the four argument arrays — and with the four arguments untouched. Nothing
  here depends on what the float operations compute, so everything is stated for any float values `F`.
-/
import proofs.«164151_g1408749273623_cont_week2b_1096_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
  Idealize.ShloMosaic.StableHlo

variable {F : FTy → Type} [FloatOps F]

/-! ## The operations -/

/-- The program's 45 operations in order: the first lookup's 22 (into the buffers of the program's first call, the
    seventh of them the select of the helper the lookup calls, into that inner call's buffer), the second lookup's
    22 likewise, and the matrix product of the two results. -/
abbrev ops : List (HloOp τ sig (Elt F)) :=
  [ TRef.nullary main_call0.c (constantI S_ 32 0#32),
    TRef.unary main_call0.c main_call0.v0 (broadcastInDim S4096x64 ![] bcast_S_S4096x64),
    TRef.binary (.of main_arg0) main_call0.v0 main_call0.v1 (cmpi .slt),
    TRef.nullary main_call0.c_0 (constantI S_ 32 16#32),
    TRef.unary main_call0.c_0 main_call0.v2 (broadcastInDim S4096x64 ![] bcast_S_S4096x64),
    TRef.binary (.of main_arg0) main_call0.v2 main_call0.v3 addi,
    TRef.ternary main_call0.v1 main_call0.v3 (.of main_arg0) main_call0.call0.v0 select,
    TRef.unary main_call0.call0.v0 main_call0.v5 (broadcastInDim S4096x64x1 ![0, 1] bcast_S4096x64_S4096x64x1_0_1),
    TRef.nullary main_call0.c_1 (constantI S1 32 15#32),
    TRef.nullary main_call0.c_2 (constantI S_ 32 0#32),
    TRef.unary main_call0.c_2 main_call0.v6 (broadcastInDim S4096x64x1 ![] bcast_S_S4096x64x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x64x1 ![0, 1, 2] bcast_S1x1x1_S4096x64x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x64x1_S4096x64_d2 h_S_),
    TRef.binary (.of main_arg2) main_call0.v5 main_call0.v13 (fun x i => Host.gather gather_S16_S4096x64x1_S4096x64_n_0_n_n_0_2_1 x i),
    TRef.nullary main_call0.cst (constant S_ .f32 0x7FC00000#32),
    TRef.unary main_call0.cst main_call0.v14 (broadcastInDim S4096x64 ![] bcast_S_S4096x64),
    TRef.ternary main_call0.v12 main_call0.v13 main_call0.v14 main_call0.v15 select,
    TRef.nullary main_call1.c (constantI S_ 32 0#32),
    TRef.unary main_call1.c main_call1.v0 (broadcastInDim S64x4096 ![] bcast_S_S64x4096),
    TRef.binary (.of main_arg1) main_call1.v0 main_call1.v1 (cmpi .slt),
    TRef.nullary main_call1.c_0 (constantI S_ 32 16#32),
    TRef.unary main_call1.c_0 main_call1.v2 (broadcastInDim S64x4096 ![] bcast_S_S64x4096),
    TRef.binary (.of main_arg1) main_call1.v2 main_call1.v3 addi,
    TRef.ternary main_call1.v1 main_call1.v3 (.of main_arg1) main_call1.call0.v0 select,
    TRef.unary main_call1.call0.v0 main_call1.v5 (broadcastInDim S64x4096x1 ![0, 1] bcast_S64x4096_S64x4096x1_0_1),
    TRef.nullary main_call1.c_1 (constantI S1 32 15#32),
    TRef.nullary main_call1.c_2 (constantI S_ 32 0#32),
    TRef.unary main_call1.c_2 main_call1.v6 (broadcastInDim S64x4096x1 ![] bcast_S_S64x4096x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S64x4096x1 ![0, 1, 2] bcast_S1x1x1_S64x4096x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S64x4096x1_S64x4096_d2 h_S_),
    TRef.binary (.of main_arg3) main_call1.v5 main_call1.v13 (fun x i => Host.gather gather_S16_S64x4096x1_S64x4096_n_0_n_n_0_2_1 x i),
    TRef.nullary main_call1.cst (constant S_ .f32 0x7FC00000#32),
    TRef.unary main_call1.cst main_call1.v14 (broadcastInDim S64x4096 ![] bcast_S_S64x4096),
    TRef.ternary main_call1.v12 main_call1.v13 main_call1.v14 main_call1.v15 select,
    binary main_v0 main_v1 main_v2 ((fun l r => Host.dotGeneral dot_S4096x64_S64x4096_S4096x4096_1_0_0_1_n_n none l r) : (⟨S4096x64, .f32⟩ : BufTy).Contents (Elt F) → (⟨S64x4096, .f32⟩ : BufTy).Contents (Elt F) → (⟨S4096x4096, .f32⟩ : BufTy).Contents (Elt F)) ]

-- forty-five binds re-associated: the rewriting recurses once per statement
set_option maxRecDepth 1024 in
/-- The printed program is that straight line: with the two lookup functions and their select helpers unfolded at
    their call sites, both sides are one chain of single steps once sequencing is re-associated. -/
theorem main_eq (c : Dev nD) : main (F := F) c = seq ops := by
  simp only [main, fn_take.body, fn_take_0.body, fn_where.body, fn_where_1.body, seq, bind_assoc, pure_bind]

/-- The program scopes no buffer. -/
theorem scopedRefs_eq : (Finset.univ.filter fun b : Ref sig .tc => b.isScoped) = ∅ := by decide
/-- The program has no semaphore, so none is scoped. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., binary_bufs_sub ..⟩

/-! ## The operations composed -/

/-- The position array of the first lookup, as the gather reads it: a word that reads negative has 16 added
    (counting from the end of the codebook), any other word is kept; the array is then given a trailing axis
    of extent one, the axis along which a gather reads the coordinates of one position. -/
def liftA (X : IVec S4096x64 32) : IVec S4096x64x1 32 :=
  broadcastInDim S4096x64x1 ![0, 1] bcast_S4096x64_S4096x64x1_0_1
    (select (cmpi .slt X (broadcastInDim S4096x64 ![] bcast_S_S4096x64 (constantI S_ 32 0#32)))
      (addi X (broadcastInDim S4096x64 ![] bcast_S_S4096x64 (constantI S_ 32 16#32))) X)

/-- The position array of the second lookup, as the gather reads it: a word that reads negative has 16 added
    (counting from the end of the codebook), any other word is kept; the array is then given a trailing axis
    of extent one, the axis along which a gather reads the coordinates of one position. -/
def liftB (X : IVec S64x4096 32) : IVec S64x4096x1 32 :=
  broadcastInDim S64x4096x1 ![0, 1] bcast_S64x4096_S64x4096x1_0_1
    (select (cmpi .slt X (broadcastInDim S64x4096 ![] bcast_S_S64x4096 (constantI S_ 32 0#32)))
      (addi X (broadcastInDim S64x4096 ![] bcast_S_S64x4096 (constantI S_ 32 16#32))) X)

/-- The first lookup as one function of the codebook and the word array: the in-range test of every position
    (both comparisons against 0 and 15, joined, and folded along the trailing axis of extent one starting from
    "true"), the codebook read at the positions, and the choice between that read and the not-a-number word. -/
def takeA (cb : FVec F S16 .f32) (X : IVec S4096x64 32) : FVec F S4096x64 .f32 :=
  select
    (Host.reduce IntOp.andi
      (andi
        (cmpi .sge (liftA X) (broadcastInDim S4096x64x1 ![] bcast_S_S4096x64x1 (constantI S_ 32 0#32)))
        (cmpi .sle (liftA X)
          (broadcastInDim S4096x64x1 ![0, 1, 2] bcast_S1x1x1_S4096x64x1_0_1_2
            (broadcastInDim S1x1x1 ![2] bcast_S1_S1x1x1_2 (constantI S1 32 15#32)))))
      (constantI S_ 1 1#1) reducesTo_S4096x64x1_S4096x64_d2 h_S_)
    (Host.gather gather_S16_S4096x64x1_S4096x64_n_0_n_n_0_2_1 cb (liftA X))
    (broadcastInDim S4096x64 ![] bcast_S_S4096x64 (constant S_ .f32 0x7FC00000#32))

/-- The second lookup, the same function over the 64 by 4096 word array. -/
def takeB (cb : FVec F S16 .f32) (X : IVec S64x4096 32) : FVec F S64x4096 .f32 :=
  select
    (Host.reduce IntOp.andi
      (andi
        (cmpi .sge (liftB X) (broadcastInDim S64x4096x1 ![] bcast_S_S64x4096x1 (constantI S_ 32 0#32)))
        (cmpi .sle (liftB X)
          (broadcastInDim S64x4096x1 ![0, 1, 2] bcast_S1x1x1_S64x4096x1_0_1_2
            (broadcastInDim S1x1x1 ![2] bcast_S1_S1x1x1_2 (constantI S1 32 15#32)))))
      (constantI S_ 1 1#1) reducesTo_S64x4096x1_S64x4096_d2 h_S_)
    (Host.gather gather_S16_S64x4096x1_S64x4096_n_0_n_n_0_2_1 cb (liftB X))
    (broadcastInDim S64x4096 ![] bcast_S_S64x4096 (constant S_ .f32 0x7FC00000#32))

/-- The whole program as one function of its four arguments: the matrix product of the two lookups. -/
def out (A : IVec S4096x64 32) (B : IVec S64x4096 32) (ca cb : FVec F S16 .f32) : FVec F S4096x4096 .f32 :=
  Host.dotGeneral dot_S4096x64_S64x4096_S4096x4096_1_0_0_1_n_n none (takeA ca A) (takeB cb B)

/-! ## The run -/

attribute [local irreducible] Host.reduce Host.gather in
set_option maxRecDepth 8192 in
/-- What the result buffer holds after the 45 operations, from any contents `V`: `out` of the four argument
    buffers' contents. Each operation rewrites only its own result buffer, so reading the result buffer back
    through the list composes the operations' functions; the fold, the product and the gather are never opened. -/
theorem out_eq (V : Valuation τ sig (Elt F)) :
    after ops V (main_v2 : DevRef τ sig)
      = out (V (main_arg0 : DevRef τ sig)) (V (main_arg1 : DevRef τ sig)) (V (main_arg2 : DevRef τ sig))
          (V (main_arg3 : DevRef τ sig)) := by
  after_results_simp
  rfl

/-- No operation writes an argument buffer. -/
theorem arg0_eq (V : Valuation τ sig (Elt F)) :
    after ops V (main_arg0 : DevRef τ sig) = V (main_arg0 : DevRef τ sig) := by
  simp only [after_cons, after_nil]
  rfl
theorem arg1_eq (V : Valuation τ sig (Elt F)) :
    after ops V (main_arg1 : DevRef τ sig) = V (main_arg1 : DevRef τ sig) := by
  simp only [after_cons, after_nil]
  rfl
theorem arg2_eq (V : Valuation τ sig (Elt F)) :
    after ops V (main_arg2 : DevRef τ sig) = V (main_arg2 : DevRef τ sig) := by
  simp only [after_cons, after_nil]
  rfl
theorem arg3_eq (V : Valuation τ sig (Elt F)) :
    after ops V (main_arg3 : DevRef τ sig) = V (main_arg3 : DevRef τ sig) := by
  simp only [after_cons, after_nil]
  rfl

/-- On every device, for any float values, from any memory with zero counters: every weakly fair execution of the
    program terminates with the result buffer at `out` of the four arguments' launch contents and the four
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2)
          = out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v2).trans (out_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.ReferenceIdeal.RefValue

end
-- ==== Proof.RefRead.lean ====
/-
  The reference program's result, read entry by entry.

  RefRun states the result of the reference as `out`: the matrix product of two table lookups written with the
  guards of an indexed read (a negative word moved up by 16, a range test, a clamped read, a not-a-number word where
  the test fails). This module reads `out` at the extended reals under the certificate's domain: every code word,
  read signed, lies in 0..15. Then no word is moved, every test passes, the clamp does nothing, and each lookup's
  entry is the codebook's number at the position its word names; the product's entry (i, j) is the sum over the 64
  inner positions of the products of those numbers, which is the specification `Cert.Dequant.G`.

  The steps: three facts about one in-range word (it is not moved; it passes the test; clamping its signed value
  gives the position it names); a fold by "and" from "true" over tests that all passed is "true"; each lookup read
  at an entry; the product read at an entry as a sum over the inner coordinate.
-/
import proofs.«164151_g1408749273623_cont_week2b_1096_2_alg».proof.Proof.RefRun
import proofs.«164151_g1408749273623_cont_week2b_1096_2_alg».proof.Proof.Dequant
import Idealize.ShloMosaic.Lib.ValueIdx
import Idealize.ShloMosaic.Lib.Affine
import Idealize.ShloMosaic.Lib.Pipeline.Value
import Idealize.ShloMosaic.Lib.StackMember
import Idealize.ShloMosaic.PureOps.Reduce
import Idealize.ShloMosaic.PureOps.Ideal.Laws

namespace Cert.ReferenceIdeal.RefValue

open Cert.ReferenceIdeal Cert.ReferenceIdeal.Gen Idealize.ShloMosaic Idealize.ShloMosaic.ValueIdx Cert.Dequant

/-! ## One in-range word -/

/-- An in-range word does not read negative, so "add 16 if negative" leaves it as it is. -/
theorem wrap_eq {x : BitVec 32} (h : InRange x) :
    Scalar.select (IntOp.cmpi .slt x 0#32) (IntOp.addi x 16#32) x = x := by
  have e0 : (0#32 : BitVec 32).toInt = 0 := by decide
  have hn : ¬IntOp.cmpi .slt x 0#32 = 1#1 := by
    rw [IntOp.cmpi_slt, e0]
    exact not_lt.mpr h.1
  rw [eq_zero_of_ne_one hn, select_zero]

/-- An in-range word passes the test "at least 0 and at most 15". -/
theorem test_eq {x : BitVec 32} (h : InRange x) :
    IntOp.andi (IntOp.cmpi .sge x 0#32) (IntOp.cmpi .sle x 15#32) = 1#1 := by
  have e0 : (0#32 : BitVec 32).toInt = 0 := by decide
  have e15 : (15#32 : BitVec 32).toInt = 15 := by decide
  obtain ⟨h0, h1⟩ := h
  rw [IntOp.andi_eq_one, IntOp.cmpi_sge, IntOp.cmpi_sle, e0, e15]
  exact ⟨h0, by omega⟩

/-- The signed value of an in-range word, clamped into 0..15, is the position the word names: the word is below
    16, so its signed and unsigned readings agree and neither the clamp nor the remainder by 16 changes it. (Stated
    for a word `y` known to equal the in-range word `x`, the form in which a gather's start index arrives.) -/
theorem pos_eq {x y : BitVec 32} (e : y = x) (h : InRange x) (hlt : min y.toInt.toNat (16 - 1) < 16) :
    (⟨min y.toInt.toNat (16 - 1), hlt⟩ : Fin 16) = code x := by
  subst e
  apply Fin.ext
  show min y.toInt.toNat (16 - 1) = y.toNat % 16
  have hx := h.toNat_lt
  have hi : y.toInt = (y.toNat : Int) := by
    rw [BitVec.toInt_eq_toNat_cond]
    split <;> omega
  omega

/-! ## A fold of passed tests -/

/-- A left fold by "and" that starts at 1 and meets only 1s ends at 1. -/
theorem foldl_andi_of_all_one {ι : Type} (f : ι → BitVec 1) (l : List ι) (h : ∀ n ∈ l, f n = 1#1) :
    l.foldl (fun r n => IntOp.andi r (f n)) 1#1 = 1#1 := by
  have e : IntOp.andi 1#1 1#1 = 1#1 := by decide
  induction l with
  | nil => rfl
  | cons a l ih =>
    rw [List.foldl_cons, h a (List.mem_cons_self ..), e]
    exact ih fun n hn => h n (List.mem_cons_of_mem _ hn)

/-- A reduction by "and" from an initial "true" of an array that is 1 everywhere is 1 at every result index,
    whatever the reduced axes: each result entry is such a fold over some of the array's entries. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_of_all_one x _ fun n _ => hx n

/-! ## The two lookups at an entry -/

/-- The first lookup's position array read at any index whose first two coordinates are `a` and `b`: the trailing
    axis only repeats the 2-D array, and an in-range word does not read negative, so it is kept as it is. -/
theorem liftA_apply (X : IVec S4096x64 32) (hX : ∀ i, InRange (X i)) (j : S4096x64x1.Idx) (a : Fin 4096) (b : Fin 64)
    (ha : (j 0).val = a.val) (hb : (j 1).val = b.val) : liftA X j = X (ix2 a b) := by
  unfold liftA
  refine (broadcastInDim_apply (![0, 1] : Fin 2 → Fin 3) bcast_S4096x64_S4096x64x1_0_1 _ j (ix2 a b) ?_).trans ?_
  · intro d
    match d with
    | ⟨0, _⟩ => exact ha.symm
    | ⟨1, _⟩ => exact hb.symm
  show Scalar.select (IntOp.cmpi .slt (X (ix2 a b)) 0#32) (IntOp.addi (X (ix2 a b)) 16#32) (X (ix2 a b)) = _
  exact wrap_eq (hX _)

/-- With every word in range, the first lookup's range test holds at every index of the position array. -/
theorem testA_apply (X : IVec S4096x64 32) (hX : ∀ i, InRange (X i)) (j : S4096x64x1.Idx) :
    andi
      (cmpi .sge (liftA X) (broadcastInDim S4096x64x1 ![] bcast_S_S4096x64x1 (constantI S_ 32 0#32)))
      (cmpi .sle (liftA X)
        (broadcastInDim S4096x64x1 ![0, 1, 2] bcast_S1x1x1_S4096x64x1_0_1_2
          (broadcastInDim S1x1x1 ![2] bcast_S1_S1x1x1_2 (constantI S1 32 15#32)))) j = 1#1 := by
  show IntOp.andi (IntOp.cmpi .sge (liftA X j) 0#32) (IntOp.cmpi .sle (liftA X j) 15#32) = 1#1
  rw [liftA_apply X hX j (j 0) (j 1) rfl rfl]
  exact test_eq (hX _)

/-- The first lookup's gather is the library's "flat array read at a 2-D array of positions". -/
theorem gatherA_eq : gather_S16_S4096x64x1_S4096x64_n_0_n_n_0_2_1 = takeDims 16 4096 64 gather_S16_S4096x64x1_S4096x64_n_0_n_n_0_2_1_wf := rfl

/-- THE FIRST LOOKUP AT AN ENTRY, every word in range: the codebook's number at the position the entry's word
    names. The test is passed everywhere, so the fold of the tests from "true" is "true" and the select takes the
    gathered number; the gather reads the word signed and clamps it into 0..15, which leaves an in-range word alone. -/
theorem takeA_apply (cb : FVec Ideal S16 .f32) (X : IVec S4096x64 32) (hX : ∀ i, InRange (X i)) (p : Fin 4096) (q : Fin 64) :
    takeA (F := Ideal) cb X (ix2 p q) = cb (ix1 (code (X (ix2 p q)))) := by
  unfold takeA
  rw [select_apply, reduce_andi_of_all_one _ (constantI S_ 1 1#1) _ _ (testA_apply X hX) (fun _ => rfl), select_one, gatherA_eq,
    gather_take_apply (by decide)]
  exact congrArg (fun k : Fin 16 => cb (ix1 k)) (pos_eq (liftA_apply X hX (takeIdx (ix2 p q)) p q rfl rfl) (hX _) _)

/-- The second lookup's position array read at any index whose first two coordinates are `a` and `b`: the trailing
    axis only repeats the 2-D array, and an in-range word does not read negative, so it is kept as it is. -/
theorem liftB_apply (X : IVec S64x4096 32) (hX : ∀ i, InRange (X i)) (j : S64x4096x1.Idx) (a : Fin 64) (b : Fin 4096)
    (ha : (j 0).val = a.val) (hb : (j 1).val = b.val) : liftB X j = X (ix2 a b) := by
  unfold liftB
  refine (broadcastInDim_apply (![0, 1] : Fin 2 → Fin 3) bcast_S64x4096_S64x4096x1_0_1 _ j (ix2 a b) ?_).trans ?_
  · intro d
    match d with
    | ⟨0, _⟩ => exact ha.symm
    | ⟨1, _⟩ => exact hb.symm
  show Scalar.select (IntOp.cmpi .slt (X (ix2 a b)) 0#32) (IntOp.addi (X (ix2 a b)) 16#32) (X (ix2 a b)) = _
  exact wrap_eq (hX _)

/-- With every word in range, the second lookup's range test holds at every index of the position array. -/
theorem testB_apply (X : IVec S64x4096 32) (hX : ∀ i, InRange (X i)) (j : S64x4096x1.Idx) :
    andi
      (cmpi .sge (liftB X) (broadcastInDim S64x4096x1 ![] bcast_S_S64x4096x1 (constantI S_ 32 0#32)))
      (cmpi .sle (liftB X)
        (broadcastInDim S64x4096x1 ![0, 1, 2] bcast_S1x1x1_S64x4096x1_0_1_2
          (broadcastInDim S1x1x1 ![2] bcast_S1_S1x1x1_2 (constantI S1 32 15#32)))) j = 1#1 := by
  show IntOp.andi (IntOp.cmpi .sge (liftB X j) 0#32) (IntOp.cmpi .sle (liftB X j) 15#32) = 1#1
  rw [liftB_apply X hX j (j 0) (j 1) rfl rfl]
  exact test_eq (hX _)

/-- The second lookup's gather is the library's "flat array read at a 2-D array of positions". -/
theorem gatherB_eq : gather_S16_S64x4096x1_S64x4096_n_0_n_n_0_2_1 = takeDims 16 64 4096 gather_S16_S64x4096x1_S64x4096_n_0_n_n_0_2_1_wf := rfl

/-- THE SECOND LOOKUP AT AN ENTRY, every word in range: the codebook's number at the position the entry's word
    names. The test is passed everywhere, so the fold of the tests from "true" is "true" and the select takes the
    gathered number; the gather reads the word signed and clamps it into 0..15, which leaves an in-range word alone. -/
theorem takeB_apply (cb : FVec Ideal S16 .f32) (X : IVec S64x4096 32) (hX : ∀ i, InRange (X i)) (p : Fin 64) (q : Fin 4096) :
    takeB (F := Ideal) cb X (ix2 p q) = cb (ix1 (code (X (ix2 p q)))) := by
  unfold takeB
  rw [select_apply, reduce_andi_of_all_one _ (constantI S_ 1 1#1) _ _ (testB_apply X hX) (fun _ => rfl), select_one, gatherB_eq,
    gather_take_apply (by decide)]
  exact congrArg (fun k : Fin 16 => cb (ix1 k)) (pos_eq (liftB_apply X hX (takeIdx (ix2 p q)) p q rfl rfl) (hX _) _)

/-! ## The product at an entry -/

/-- The product's dimension numbers are those of the plain matrix product of a 4096 by 64 and a 64 by 4096 matrix. -/
theorem dot_eq : dot_S4096x64_S64x4096_S4096x4096_1_0_0_1_n_n = DotDims.plain 4096 64 4096 := rfl

/-- THE REFERENCE'S RESULT IS THE SPECIFICATION, every word of both arrays in range: entry (p, q) of the product is
    the sum over the inner coordinate c of (first lookup at (p, c)) times (second lookup at (c, q)), and each
    lookup's entry is the codebook's number at the position its word names. -/
theorem out_eq_G (A : IVec S4096x64 32) (B : IVec S64x4096 32) (ca cb : FVec Ideal S16 .f32)
    (hA : ∀ i, Cert.Dequant.InRange (A i)) (hB : ∀ i, Cert.Dequant.InRange (B i)) :
    out (F := Ideal) A B ca cb = Cert.Dequant.G A B ca cb := by
  funext i
  obtain ⟨p, q, rfl⟩ : ∃ (p : Fin 4096) (q : Fin 4096), i = ix2 p q := ⟨i 0, i 1, eq_ix2 i⟩
  unfold out Cert.Dequant.G
  rw [dot_eq, StackMember.dotGeneral_plain_apply]
  refine Finset.sum_congr rfl fun c _ => ?_
  rw [takeA_apply ca A hA p c, takeB_apply cb B hB c q]

end Cert.ReferenceIdeal.RefValue
-- ==== Proof.lean ====
/-
  The product of two codebook-dequantized factors: a fused kernel against the plain formula, over the extended reals.

  Inputs: two arrays of 32-bit code words, A (4096 × 64) and B (64 × 4096), and two codebooks of 16 numbers each.
  Under the precondition every codebook entry is finite and every code word, read signed, lies in 0..15.

  The reference looks each word up in its codebook (a lookup that wraps negative words, and yields a fill value for a
  word out of bounds) and multiplies the two 4096 × 64 and 64 × 4096 matrices of numbers. The kernel, on an 8 × 2 grid,
  stages 512 rows of A and 2048 columns of B, turns each staged word into a number by a chain of fifteen selects over a
  default of entry 0, and multiplies the two staged blocks into a zero accumulator, writing one 512 × 2048 block of the
  result per grid point.

  Both end with the same function of the inputs: entry (i, j) is the sum over the 64 inner positions c of
  (first codebook at the position word A(i, c) names) · (second codebook at the position word B(c, j) names).
  For the kernel: each written block is that function read through the block, the sixteen blocks tile the result, and
  on an in-range word the select chain is the lookup. For the reference: on an in-range word the wrap does nothing, the
  bounds check passes, the gather reads the codebook at the word's value, and the host product is the sum of products.
  No law of the extended reals beyond rewriting equal terms is used, so finiteness of the codebooks is never opened.

  The three frames are the generated frame proofs (the two kernels) and the reference's run with its result dropped;
  the idealization rewrote nothing, so the kernel's idealization is the kernel's own text read over the extended reals.
-/
import proofs.«164151_g1408749273623_cont_week2b_1096_2_alg».proof.Defs
import proofs.«164151_g1408749273623_cont_week2b_1096_2_alg».proof.Proof.Gen.Kernel
import proofs.«164151_g1408749273623_cont_week2b_1096_2_alg».proof.Proof.Gen.Kernel.Frame
import proofs.«164151_g1408749273623_cont_week2b_1096_2_alg».proof.Proof.Gen.KernelIdeal
import proofs.«164151_g1408749273623_cont_week2b_1096_2_alg».proof.Proof.Gen.KernelIdeal.Frame
import proofs.«164151_g1408749273623_cont_week2b_1096_2_alg».proof.Proof.Gen.ReferenceIdeal
import proofs.«164151_g1408749273623_cont_week2b_1096_2_alg».proof.Proof.Gen.Pre_finite_inputs
import proofs.«164151_g1408749273623_cont_week2b_1096_2_alg».proof.Proof.KernelIsG
import proofs.«164151_g1408749273623_cont_week2b_1096_2_alg».proof.Proof.PreRange
import proofs.«164151_g1408749273623_cont_week2b_1096_2_alg».proof.Proof.RefRun
import proofs.«164151_g1408749273623_cont_week2b_1096_2_alg».proof.Proof.RefRead
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- The idealized kernel runs and leaves its arguments unchanged: the generated frame. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2)
    (Cert.ReferenceIdeal.RefValue.run (F := Ideal) m ρ)

/-- Over the extended reals both programs end with the product of the two dequantized factors. The kernel's result is
    the sum of products of select chains, the reference's the sum of products of bounds-checked lookups; the
    precondition puts every code word in 0..15, where a chain and a lookup both give the codebook entry the word names. -/
theorem algebraic : Cert.algebraic_KernelIdeal_ReferenceIdeal := by
  intro m ρ m' ρ' hpre hagree
  refine ⟨fun c => Cert.Dequant.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.KernelIdeal.Hand.run m ρ)
    obtain ⟨hA, hB⟩ := Cert.Pre_finite_inputs.Hand.range_of_pre _ _ _ _ (hpre c)
    exact Cert.KernelIdeal.Hand.GK_eq_G _ _ _ _ hA hB
  · refine (θ_run Cert.ReferenceIdeal.defs _ _).mono (fun _ h c => ⟨(h c).1.trans ?_, (h c).2⟩)
      (Cert.ReferenceIdeal.RefValue.run (F := Ideal) m' ρ')
    obtain ⟨hA, hB⟩ := Cert.Pre_finite_inputs.Hand.range_of_pre _ _ _ _ (hpre c)
    rw [(hagree c).1, (hagree c).2.1, (hagree c).2.2.1, (hagree c).2.2.2]
    exact Cert.ReferenceIdeal.RefValue.out_eq_G _ _ _ _ hA hB

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
